-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S256x128 .f32) (main_arg4 : FVec F S128 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x128 : Shape := ⟨2, ![128, 128]⟩
abbrev S5000x128 : Shape := ⟨2, ![5000, 128]⟩
abbrev S1x128 : Shape := ⟨2, ![1, 128]⟩

abbrev nBuf : Space → Nat
  | .hbm => 63
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S128x128, .f32⟩
  | .hbm, ⟨33, _⟩ => ⟨S128x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S_, .f32⟩
  | .hbm, ⟨49, _⟩ => ⟨S800000, .f32⟩
  | .hbm, ⟨50, _⟩ => ⟨S_, .f32⟩
  | .hbm, ⟨51, _⟩ => ⟨S50000, .f32⟩
  | .hbm, ⟨52, _⟩ => ⟨S800000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S128x128, .f32⟩
  | .hbm, ⟨61, _⟩ => ⟨S128x128, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x256, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S50000x256, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named.

  @main is four segments: the host operations that prepare the first layer's operands, the first kernel launch, the
  host operations that prepare the second layer's operands from the first launch's output, and the second launch.
  The frame certificate runs these segments and keeps, of the final memory, only that the arguments are unchanged.
  The same run also knows every buffer's final contents (the fold `W4` through the four segments), so the result
  buffer ends at `W4` read at it; that is what is added here.
-/
import proofs.«158253_j46420006535375_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W4` and the arguments as launched. -/
theorem run : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.KernelHost.lean ====
/-
  The host operations around the two kernel launches, read as functions of what they are applied to.

  Before each launch @main computes, on the host, the neighbour mean of the layer's input: the rows of the input
  gathered along the edges' sources (a negative source index first moved up by the number of nodes), summed into the
  edges' destinations, and divided by the larger of the destination's edge count and one.  It also cuts the layer's
  256 × 128 weight into its upper and lower 128 rows.  `mean` names that chain of operations as ONE function of the
  input and the two index vectors; it is never opened.  The lemmas below say what each launch finds in its five
  operand arrays: for the first launch in terms of the launch memory, for the second in terms of the contents the
  first launch left.
-/
import proofs.«158253_j46420006535375_1_alg».proof.Proof.Gen.KernelIdeal.Frame
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The neighbour mean of the node features `x` along the edges `s → d`, as the host computes it. -/
def mean (x : (⟨S50000x128, .f32⟩ : BufTy).Contents (Elt F)) (s d : (⟨S800000, .i32⟩ : BufTy).Contents (Elt F)) :
    (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 d) (Host.gather gather_S50000x128_S800000x1_S800000x128_1_0_n_n_0_1_1128 x (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 d) (broadcastInDim S800000 ![] bcast_S_S800000 (constant S_ .f32 0x3F800000#32))) (broadcastInDim S50000 ![] bcast_S_S50000 (constant S_ .f32 0x3F800000#32)))))

/-- The upper 128 rows of a weight. -/
def upperRows (W : (⟨S256x128, .f32⟩ : BufTy).Contents (Elt F)) : (⟨S128x128, .f32⟩ : BufTy).Contents (Elt F) :=
  extractStridedSlice S128x128 ![0, 0] W slices_S256x128_S128x128_0_0

/-- The lower 128 rows of a weight. -/
def lowerRows (W : (⟨S256x128, .f32⟩ : BufTy).Contents (Elt F)) : (⟨S128x128, .f32⟩ : BufTy).Contents (Elt F) :=
  extractStridedSlice S128x128 ![128, 0] W slices_S256x128_S128x128_128_0

variable (m : (ℓ : Loc nD τ sig) → Buf (Elt F) ℓ) (ρ : Dev nD → PrngReg)

/-! ## What the first launch finds -/

theorem first_x (c : Dev nD) : V1 m ρ c main_arg0 = m ((c : Thread nD τ).loc main_arg0) := by
  show StableHlo.after hostOps0 (W0 m ρ c) (Proc.devRef .tc main_arg0) = _
  after_results_simp <;> rfl

theorem first_mean (c : Dev nD) : V1 m ρ c main_v18
    = mean (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

theorem first_upper (c : Dev nD) : V1 m ρ c main_v19 = upperRows (m ((c : Thread nD τ).loc main_arg3)) := by
  show StableHlo.after hostOps0 (W0 m ρ c) (Proc.devRef .tc main_v19) = _
  after_results_simp <;> rfl

theorem first_lower (c : Dev nD) : V1 m ρ c main_v20 = lowerRows (m ((c : Thread nD τ).loc main_arg3)) := by
  show StableHlo.after hostOps0 (W0 m ρ c) (Proc.devRef .tc main_v20) = _
  after_results_simp <;> rfl

theorem first_bias (c : Dev nD) : V1 m ρ c main_arg4 = m ((c : Thread nD τ).loc main_arg4) := by
  show StableHlo.after hostOps0 (W0 m ρ c) (Proc.devRef .tc main_arg4) = _
  after_results_simp <;> rfl

/-! ## What the first launch leaves where the second stretch of host operations reads -/

/-- The first launch changes none of the three arguments the second stretch reads, nor the second bias. -/
theorem mid_src (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results_simp <;> rfl

theorem mid_dst (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results_simp <;> rfl

theorem mid_weight (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp <;> rfl

theorem mid_bias (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl

/-- The first launch's output array is what its pipeline leaves. -/
theorem mid_out (c : Dev nD) : W2 m ρ c (Proc.devRef .tc main_v21) = (dat0 (V1 m ρ) c).arrAt 5 cfg0.N :=
  W2_arr m ρ c 5

/-! ## What the second launch finds -/

theorem second_x (c : Dev nD) : V3 m ρ c main_v21 = W2 m ρ c (Proc.devRef .tc main_v21) := by
  show StableHlo.after hostOps1 (W2 m ρ c) (Proc.devRef .tc main_v21) = _
  after_results_simp <;> rfl

theorem second_mean (c : Dev nD) : V3 m ρ c main_v40
    = mean (W2 m ρ c (Proc.devRef .tc main_v21)) (W2 m ρ c (Proc.devRef .tc main_arg1)) (W2 m ρ c (Proc.devRef .tc main_arg2)) := by
  show StableHlo.after hostOps1 (W2 m ρ c) (Proc.devRef .tc main_v40) = _
  after_results_simp <;> rfl

theorem second_upper (c : Dev nD) : V3 m ρ c main_v41 = upperRows (W2 m ρ c (Proc.devRef .tc main_arg5)) := by
  show StableHlo.after hostOps1 (W2 m ρ c) (Proc.devRef .tc main_v41) = _
  after_results_simp <;> rfl

theorem second_lower (c : Dev nD) : V3 m ρ c main_v42 = lowerRows (W2 m ρ c (Proc.devRef .tc main_arg5)) := by
  show StableHlo.after hostOps1 (W2 m ρ c) (Proc.devRef .tc main_v42) = _
  after_results_simp <;> rfl

theorem second_bias (c : Dev nD) : V3 m ρ c main_arg6 = W2 m ρ c (Proc.devRef .tc main_arg6) := by
  show StableHlo.after hostOps1 (W2 m ρ c) (Proc.devRef .tc main_arg6) = _
  after_results_simp <;> rfl

end Cert.KernelIdeal.HostSide

end
-- ==== Proof.LibMatmulZero.lean ====
/-
  A kernel matrix product into a zero accumulator, read at an index.

  The matrix unit's product of an m×k block by a k×n block, contracting the first operand's second axis with the
  second operand's first axis and with no batch axis, accumulated into the all-zero block, read at row `a` and column
  `b` at the exact instance, is the sum over the contracted coordinate `c` of the products of the entries `(a, c)`
  and `(c, b)`: the zero it starts from is the additive unit of the extended reals, and no rounding or chunk order is
  left.  Stated for the record spelt out with its well-formedness evidence as a variable, which is the shape a printed
  program's product records take once unfolded.
-/
import Idealize.ShloMosaic.Lib.ValueIdx
import Idealize.ShloMosaic.Lib.Pipeline.Value
import Idealize.ShloMosaic.PureOps.Ideal.Laws

noncomputable section

namespace Cert.LibMatmulZero

open Idealize.ShloMosaic Idealize.ShloMosaic.ValueIdx

/-- The product of an m×k by a k×n block into the zero block, at `(a, b)`, is `∑ c, A (a, c) * B (c, b)`. -/
theorem matmulZero_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulZero

end
-- ==== Proof.KernelPayload.lean ====
/-
  What one grid point of either kernel launch stores, read at an index.

  At a grid point the body holds a block `x0` of 5000 rows of node features, the matching block `x1` of neighbour
  means, the two 128 × 128 halves `x2`, `x3` of the layer's weight and its bias `x4`.  At the exact instance the
  roundings to the matrix unit's input format are the identity and the two products start from the zero block, so
  the stored block at row `p`, column `q` is

      max ( Σ_k x0[p, k] · x2[k, q]  +  Σ_k x1[p, k] · x3[k, q]  +  x4[q] ,  0 ).

  The second launch's body differs from the first's only by one more identity reshape of its first operand.
-/
import proofs.«158253_j46420006535375_1_alg».proof.Proof.Gen.KernelIdeal.Skeleton
import proofs.«158253_j46420006535375_1_alg».proof.Proof.LibMatmulZero
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The printed product record of both launches is the plain rows-by-columns contraction. -/
theorem dot_eq : dot_S5000x128_S128x128_S5000x128_1_0_0_1_n_n
    = (⟨[1], [0], [0], [1], [], [], Facts₀.dot_S5000x128_S128x128_S5000x128_1_0_0_1_n_n_wf⟩ : DotDims S5000x128 S128x128 S5000x128) := rfl

/-- A product of a rounded block by a rounded half-weight into the zero block, at `(p, q)`. -/
theorem product_apply (x : FVec Ideal S5000x128 .f32) (w : FVec Ideal S128x128 .f32) (p : Fin 5000) (q : Fin 128) :
    matmul dot_S5000x128_S128x128_S5000x128_1_0_0_1_n_n none (truncf .bf16 x bitsLt_bf16_f32) (truncf .bf16 w bitsLt_bf16_f32)
        (constant (F := Ideal) S5000x128 .f32 0x00000000#32) (ix2 p q)
      = ∑ k : Fin 128, x (ix2 p k) * w (ix2 k q) := by
  rw [dot_eq]
  exact Cert.LibMatmulZero.matmulZero_nn_apply _ none (truncf .bf16 x bitsLt_bf16_f32) (truncf .bf16 w bitsLt_bf16_f32) p q

/-- The bias, made a one-row block and repeated down the 5000 rows, at `(p, q)` is the bias at `q`. -/
theorem bias_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- The first launch's stored block at `(p, q)`. -/
theorem pay0_apply (x0 x1 : FVec Ideal S5000x128 .f32) (x2 x3 : FVec Ideal S128x128 .f32) (x4 : FVec Ideal S128 .f32)
    (p : Fin 5000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix1 q)) 0 := by
  unfold k0_pay1
  simp only [shapeCast_self]
  show max (matmul dot_S5000x128_S128x128_S5000x128_1_0_0_1_n_n none (truncf .bf16 x0 bitsLt_bf16_f32) (truncf .bf16 x2 bitsLt_bf16_f32)
          (constant (F := Ideal) S5000x128 .f32 0x00000000#32) (ix2 p q)
        + matmul dot_S5000x128_S128x128_S5000x128_1_0_0_1_n_n none (truncf .bf16 x1 bitsLt_bf16_f32) (truncf .bf16 x3 bitsLt_bf16_f32)
          (constant (F := Ideal) S5000x128 .f32 0x00000000#32) (ix2 p q)
        + broadcastTo S5000x128 (shapeCast S1x128 x4 shapeCasts_S128_S1x128) broadcasts_S1x128_S5000x128 (ix2 p q))
      (Ideal.ofBits .f32 0x00000000#32) = _
  rw [product_apply, product_apply, bias_apply, Ideal.ofBits_zero_f32]

/-- The second launch's stored block at `(p, q)`: the same function. -/
theorem pay1_apply (x0 x1 : FVec Ideal S5000x128 .f32) (x2 x3 : FVec Ideal S128x128 .f32) (x4 : FVec Ideal S128 .f32)
    (p : Fin 5000) (q : Fin 128) :
    k1_pay1 (F := Ideal) x0 x1 x2 x3 x4 (ix2 p q)
      = max ((∑ k : Fin 128, x0 (ix2 p k) * x2 (ix2 k q)) + (∑ k : Fin 128, x1 (ix2 p k) * x3 (ix2 k q)) + x4 (ix1 q)) 0 := by
  unfold k1_pay1
  simp only [shapeCast_self]
  show max (matmul dot_S5000x128_S128x128_S5000x128_1_0_0_1_n_n none (truncf .bf16 x0 bitsLt_bf16_f32) (truncf .bf16 x2 bitsLt_bf16_f32)
          (constant (F := Ideal) S5000x128 .f32 0x00000000#32) (ix2 p q)
        + matmul dot_S5000x128_S128x128_S5000x128_1_0_0_1_n_n none (truncf .bf16 x1 bitsLt_bf16_f32) (truncf .bf16 x3 bitsLt_bf16_f32)
          (constant (F := Ideal) S5000x128 .f32 0x00000000#32) (ix2 p q)
        + broadcastTo S5000x128 (shapeCast S1x128 x4 shapeCasts_S128_S1x128) broadcasts_S1x128_S5000x128 (ix2 p q))
      (Ideal.ofBits .f32 0x00000000#32) = _
  rw [product_apply, product_apply, bias_apply, Ideal.ofBits_zero_f32]

end Cert.KernelIdeal.Payload

end
-- ==== Proof.LibSumSplit.lean ====
/-
  Sums over an initial segment of the naturals, cut into consecutive runs.

  A sum of `a + b` terms is the sum of its first `a` terms plus the sum of its last `b` terms, in any commutative
  additive monoid (no subtraction, no cancellation: the extended reals qualify).  The forms below spell the two halves
  over `Fin a` and `Fin b` with the positions written out as naturals, which is how an index into a concatenation of
  two blocks along one axis presents itself; and the three-run form `a + b + 1` is a contraction over two blocks of
  features followed by one scalar feature.
-/
import Mathlib.Algebra.BigOperators.Fin

namespace Cert.LibSumSplit

open Finset

variable {M : Type*} [AddCommMonoid M]

/-- A sum over `Fin (a + b)` as the sum of the first `a` terms plus the sum of the last `b` terms, positions as naturals. -/
theorem sum_two {a b n : ℕ} (h : a + b = n) (f : Fin n → M) :
    ∑ i : Fin n, f i
      = (∑ i : Fin a, f ⟨i.val, by omega⟩) + ∑ i : Fin b, f ⟨a + i.val, by omega⟩ := by
  subst h
  rw [Fin.sum_univ_add]
  rfl

/-- A sum over `Fin (a + b + 1)`: the first `a` terms, the next `b` terms, and the last term. -/
theorem sum_two_one {a b n : ℕ} (h : a + b + 1 = n) (f : Fin n → M) :
    ∑ i : Fin n, f i
      = ((∑ i : Fin a, f ⟨i.val, by omega⟩) + ∑ i : Fin b, f ⟨a + i.val, by omega⟩) + f ⟨a + b, by omega⟩ := by
  subst h
  rw [Fin.sum_univ_castSucc, sum_two (a := a) (b := b) rfl]
  rfl

/-- A run of terms that are all zero contributes nothing: the sum over `Fin (a + b)` whose first `a` terms vanish
    is the sum of its last `b` terms. -/
theorem sum_two_of_left_zero {a b n : ℕ} (h : a + b = n) (f : Fin n → M)
    (hz : ∀ i : Fin a, f ⟨i.val, by omega⟩ = 0) :
    ∑ i : Fin n, f i = ∑ i : Fin b, f ⟨a + i.val, by omega⟩ := by
  rw [sum_two h f, Finset.sum_eq_zero (fun i _ => hz i), zero_add]

end Cert.LibSumSplit
-- ==== Proof.SageLayer.lean ====
/-
  One mean-aggregation layer as a function of whole arrays, index by index.

  A layer takes the node features `x` (N × 128), the neighbour means `m` (N × 128), a weight `W` (256 × 128) and a
  bias `b` (128) and returns, at node `n` and output feature `j`,

      max ( Σ_{k < 128} x[n, k] · W[k, j]  +  Σ_{k < 128} m[n, k] · W[128 + k, j]  +  b[j] ,  0 ).

  The first sum is the product of `x` with the upper half of `W`, the second the product of `m` with the lower half.
  Laying `x` and `m` side by side to a N × 256 array `z` and contracting it with the whole `W` gives the one sum
  Σ_{k < 256} z[n, k] · W[k, j]; cutting that sum after its first 128 terms gives the two sums above.  Only
  commutativity and associativity of the addition of extended reals are used, so nothing here asks the entries to be
  finite.
-/
import Idealize.ShloMosaic.Lib.ValueIdx
import Idealize.ShloMosaic.PureOps.Ideal.Laws
import proofs.«158253_j46420006535375_1_alg».proof.Proof.LibSumSplit

noncomputable section

namespace Cert.Sage

open Idealize.ShloMosaic Idealize.ShloMosaic.ValueIdx

/-- Node features, and neighbour means: 50000 nodes by 128 features. -/
abbrev Nodes : Shape := ⟨2, ![50000, 128]⟩
/-- A layer's weight: 256 input features (the node's own 128, then its neighbours' mean 128) by 128 output features. -/
abbrev Weight : Shape := ⟨2, ![256, 128]⟩
/-- One half of a weight. -/
abbrev Half : Shape := ⟨2, ![128, 128]⟩
/-- A layer's bias. -/
abbrev Bias : Shape := ⟨1, ![128]⟩

/-- Row `k` of the upper half of a weight, as a row of the whole weight. -/
abbrev upper (k : Fin 128) : Fin 256 := ⟨k.val, by omega⟩
/-- Row `k` of the lower half of a weight, as a row of the whole weight. -/
abbrev lower (k : Fin 128) : Fin 256 := ⟨128 + k.val, by omega⟩

/-- One entry of a layer computed from the two halves of the weight given as separate 128 × 128 arrays. -/
def cellHalves (x m : Nodes.Idx → EReal) (wa wb : Half.Idx → EReal) (b : Bias.Idx → EReal) (n : Fin 50000) (j : Fin 128) : EReal :=
  max ((∑ k : Fin 128, x (ix2 n k) * wa (ix2 k j)) + (∑ k : Fin 128, m (ix2 n k) * wb (ix2 k j)) + b (ix1 j)) 0

/-- One entry of a layer from the whole weight: the node's own features meet rows 0 … 127, the mean rows 128 … 255. -/
def cell (x m : Nodes.Idx → EReal) (W : Weight.Idx → EReal) (b : Bias.Idx → EReal) (n : Fin 50000) (j : Fin 128) : EReal :=
  max ((∑ k : Fin 128, x (ix2 n k) * W (ix2 (upper k) j)) + (∑ k : Fin 128, m (ix2 n k) * W (ix2 (lower k) j)) + b (ix1 j)) 0

/-- A layer as a whole array. -/
def layer (x m : Nodes.Idx → EReal) (W : Weight.Idx → EReal) (b : Bias.Idx → EReal) : Nodes.Idx → EReal :=
  fun i => cell x m W b (i 0) (i 1)

/-- Two layers, the neighbour means of each taken by one and the same aggregation `agg` of that layer's input. -/
def twoLayers (agg : (Nodes.Idx → EReal) → (Nodes.Idx → EReal)) (h : Nodes.Idx → EReal)
    (W1 : Weight.Idx → EReal) (b1 : Bias.Idx → EReal) (W2 : Weight.Idx → EReal) (b2 : Bias.Idx → EReal) : Nodes.Idx → EReal :=
  layer (layer h (agg h) W1 b1) (agg (layer h (agg h) W1 b1)) W2 b2

/-- When the two separate halves are the upper and lower rows of one weight, the entry is that of the whole weight. -/
theorem cellHalves_eq_cell (x m : Nodes.Idx → EReal) (wa wb : Half.Idx → EReal) (W : Weight.Idx → EReal) (b : Bias.Idx → EReal)
    (ha : ∀ (k j : Fin 128), wa (ix2 k j) = W (ix2 (upper k) j)) (hb : ∀ (k j : Fin 128), wb (ix2 k j) = W (ix2 (lower k) j))
    (n : Fin 50000) (j : Fin 128) : cellHalves x m wa wb b n j = cell x m W b n j := by
  unfold cellHalves cell
  simp only [ha, hb]

/-- The contraction of the side-by-side array `z` with the whole weight, cut after its first 128 terms: when `z`
    reads `x` on columns 0 … 127 and `m` on columns 128 … 255, the one sum over 256 terms plus the bias, clipped
    below at zero, is the layer's entry. -/
theorem cell_of_joined (x m : Nodes.Idx → EReal) (z : (⟨2, ![50000, 256]⟩ : Shape).Idx → EReal) (W : Weight.Idx → EReal)
    (b : Bias.Idx → EReal) (n : Fin 50000) (j : Fin 128)
    (hx : ∀ k : Fin 128, z (ix2 n (upper k)) = x (ix2 n k)) (hm : ∀ k : Fin 128, z (ix2 n (lower k)) = m (ix2 n k)) :
    max ((∑ k : Fin 256, z (ix2 n k) * W (ix2 k j)) + b (ix1 j)) 0 = cell x m W b n j := by
  unfold cell
  rw [Cert.LibSumSplit.sum_two (a := 128) (b := 128) (n := 256) rfl (fun k : Fin 256 => z (ix2 n k) * W (ix2 k j))]
  simp only [hx, hm]

end Cert.Sage

end
-- ==== Proof.KernelLaunch0.lean ====
/-
  What the first kernel launch leaves in its output array, as one function of the arrays it finds.

  The launch walks ten grid points; point `t` reads rows 5000·t … 5000·t + 4999 of the node features and of the
  neighbour means, the two 128 × 128 half-weights and the bias whole, and writes rows 5000·t … 5000·t + 4999 of the
  output.  Row `r` of the output is therefore written by point `r / 5000`, from row `r` of the two inputs, and the
  ten blocks cover the 50000 rows: the output array ends as the layer's entries (`Cert.Sage.cellHalves`) of the arrays
  the launch was entered with, index by index.  Everything is stated for arbitrary contents `V` at the launch's entry.
-/
import proofs.«158253_j46420006535375_1_alg».proof.Proof.Gen.KernelIdeal.Frame
import proofs.«158253_j46420006535375_1_alg».proof.Proof.KernelPayload
import proofs.«158253_j46420006535375_1_alg».proof.Proof.SageLayer
import Idealize.ShloMosaic.Lib.Pipeline.Value
import Idealize.ShloMosaic.Lib.ValueIdx

set_option maxRecDepth 16384

noncomputable section

namespace Cert.KernelIdeal.Launch0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The output array after the launch: the layer's entries of the entry contents of its five input arrays. -/
def result (c : Dev nD) : S50000x128.Idx → EReal := fun i =>
  Cert.Sage.cellHalves (V c main_arg0) (V c main_v18) (V c main_v19) (V c main_v20) (V c main_arg4) (i 0) (i 1)

/-- The printed index maps over the ten points: the row blocks of both inputs and of the output move with the
    point, their column block is the only one; the half-weights and the bias are one block each. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of point `t`'s block, as a row of the whole array. -/
def row (t : Fin cfg0.N) (p : Fin 5000) : Fin 50000 :=
  ⟨t.val * 5000 + p.val, by have h : t.val < grid0.N := t.isLt; rw [N_0] at h; have := p.isLt; omega⟩

theorem row_val (t : Fin cfg0.N) (p : Fin 5000) : (row t p).val = t.val * 5000 + p.val := rfl

/-- The block of the node features at point `t`, at `(p, k)`. -/
theorem read_x (c : Dev nD) (t : Fin cfg0.N) (p : Fin 5000) (k : Fin 128) :
    (iblk0 V c 0 t : FVec Ideal S5000x128 .f32) (ix2 p k) = V c main_arg0 (ix2 (row t p) k) := by
  show V c main_arg0 (((cfg0.win 0).blk t).view.emb (ix2 p k)) = _
  refine congrArg (V c main_arg0) ?_
  obtain ⟨e00, e01, -⟩ := index_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The block of the neighbour means at point `t`, at `(p, k)`. -/
theorem read_m (c : Dev nD) (t : Fin cfg0.N) (p : Fin 5000) (k : Fin 128) :
    (iblk0 V c 1 t : FVec Ideal S5000x128 .f32) (ix2 p k) = V c main_v18 (ix2 (row t p) k) := by
  show V c main_v18 (((cfg0.win 1).blk t).view.emb (ix2 p k)) = _
  refine congrArg (V c main_v18) ?_
  obtain ⟨-, -, e10, e11, -⟩ := index_facts t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- The upper half-weight at any point, at `(k, q)`: the whole array. -/
theorem read_wa (c : Dev nD) (t : Fin cfg0.N) (k q : Fin 128) :
    (iblk0 V c 2 t : FVec Ideal S128x128 .f32) (ix2 k q) = V c main_v19 (ix2 k q) := by
  show V c main_v19 (((cfg0.win 2).blk t).view.emb (ix2 k q)) = _
  refine congrArg (V c main_v19) ?_
  obtain ⟨-, -, -, -, e20, e21, -⟩ := index_facts t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The lower half-weight at any point, at `(k, q)`: the whole array. -/
theorem read_wb (c : Dev nD) (t : Fin cfg0.N) (k q : Fin 128) :
    (iblk0 V c 3 t : FVec Ideal S128x128 .f32) (ix2 k q) = V c main_v20 (ix2 k q) := by
  show V c main_v20 (((cfg0.win 3).blk t).view.emb (ix2 k q)) = _
  refine congrArg (V c main_v20) ?_
  obtain ⟨-, -, -, -, -, -, e30, e31, -⟩ := index_facts t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- The bias at any point, at `q`: the whole array. -/
theorem read_b (c : Dev nD) (t : Fin cfg0.N) (q : Fin 128) :
    (iblk0 V c 4 t : FVec Ideal S128 .f32) (ix1 q) = V c main_arg4 (ix1 q) := by
  show V c main_arg4 (((cfg0.win 4).blk t).view.emb (ix1 q)) = _
  refine congrArg (V c main_arg4) ?_
  obtain ⟨-, -, -, -, -, -, -, -, e40, -⟩ := index_facts t
  funext a; apply Fin.ext
  match a with
  | ⟨0, _⟩ => show win0_4.index t (0 : Fin 1) * 128 + 1 * q.val = q.val; omega

/-- Where entry `(p, q)` of point `t`'s output block sits in the output array. -/
theorem out_at (t : Fin cfg0.N) (p : Fin 5000) (q : Fin 128) :
    (((cfg0.win 5).blk t).view.emb (ix2 p q) : S50000x128.Idx) = ix2 (row t p) q := by
  obtain ⟨-, -, -, -, -, -, -, -, -, e50, e51⟩ := index_facts t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- What point `t` writes back is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  refine (Cert.KernelIdeal.Payload.pay0_apply (iblk0 V c 0 t) (iblk0 V c 1 t) (iblk0 V c 2 t) (iblk0 V c 3 t) (iblk0 V c 4 t) p q).trans ?_
  simp only [read_x V c t p, read_m V c t p, read_wa V c t, read_wb V c t, read_b V c t]
  show _ = result V c (((cfg0.win 5).blk t).view.emb (ix2 p q))
  rw [out_at t p q]
  rfl

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- Every index of the output array is in the block of the point that holds its row. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < grid0.N := by omega
  obtain ⟨-, -, -, -, -, -, -, -, -, e50, e51⟩ := index_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]
    omega

/-- The output array after the launch is `result` of the arrays the launch was entered with. -/
theorem final (c : Dev nD) : (dat0 V c).arrAt 5 cfg0.N = result V c :=
  (dat0 V c).arrAt_eq_of_cover 5 (result V c) (fun t _ => flushed_eq V c t) cover

end Cert.KernelIdeal.Launch0

end
-- ==== Proof.KernelLaunch1.lean ====
/-
  What the second kernel launch leaves in its output array, as one function of the arrays it finds.

  The launch walks ten grid points; point `t` reads rows 5000·t … 5000·t + 4999 of the node features and of the
  neighbour means, the two 128 × 128 half-weights and the bias whole, and writes rows 5000·t … 5000·t + 4999 of the
  output.  Row `r` of the output is therefore written by point `r / 5000`, from row `r` of the two inputs, and the
  ten blocks cover the 50000 rows: the output array ends as the layer's entries (`Cert.Sage.cellHalves`) of the arrays
  the launch was entered with, index by index.  Everything is stated for arbitrary contents `V` at the launch's entry.
-/
import proofs.«158253_j46420006535375_1_alg».proof.Proof.Gen.KernelIdeal.Frame
import proofs.«158253_j46420006535375_1_alg».proof.Proof.KernelPayload
import proofs.«158253_j46420006535375_1_alg».proof.Proof.SageLayer
import Idealize.ShloMosaic.Lib.Pipeline.Value
import Idealize.ShloMosaic.Lib.ValueIdx

set_option maxRecDepth 16384

noncomputable section

namespace Cert.KernelIdeal.Launch1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The output array after the launch: the layer's entries of the entry contents of its five input arrays. -/
def result (c : Dev nD) : S50000x128.Idx → EReal := fun i =>
  Cert.Sage.cellHalves (V c main_v21) (V c main_v40) (V c main_v41) (V c main_v42) (V c main_arg6) (i 0) (i 1)

/-- The printed index maps over the ten points: the row blocks of both inputs and of the output move with the
    point, their column block is the only one; the half-weights and the bias are one block each. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of point `t`'s block, as a row of the whole array. -/
def row (t : Fin cfg1.N) (p : Fin 5000) : Fin 50000 :=
  ⟨t.val * 5000 + p.val, by have h : t.val < grid1.N := t.isLt; rw [N_1] at h; have := p.isLt; omega⟩

theorem row_val (t : Fin cfg1.N) (p : Fin 5000) : (row t p).val = t.val * 5000 + p.val := rfl

/-- The block of the node features at point `t`, at `(p, k)`. -/
theorem read_x (c : Dev nD) (t : Fin cfg1.N) (p : Fin 5000) (k : Fin 128) :
    (iblk1 V c 0 t : FVec Ideal S5000x128 .f32) (ix2 p k) = V c main_v21 (ix2 (row t p) k) := by
  show V c main_v21 (((cfg1.win 0).blk t).view.emb (ix2 p k)) = _
  refine congrArg (V c main_v21) ?_
  obtain ⟨e00, e01, -⟩ := index_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The block of the neighbour means at point `t`, at `(p, k)`. -/
theorem read_m (c : Dev nD) (t : Fin cfg1.N) (p : Fin 5000) (k : Fin 128) :
    (iblk1 V c 1 t : FVec Ideal S5000x128 .f32) (ix2 p k) = V c main_v40 (ix2 (row t p) k) := by
  show V c main_v40 (((cfg1.win 1).blk t).view.emb (ix2 p k)) = _
  refine congrArg (V c main_v40) ?_
  obtain ⟨-, -, e10, e11, -⟩ := index_facts t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The upper half-weight at any point, at `(k, q)`: the whole array. -/
theorem read_wa (c : Dev nD) (t : Fin cfg1.N) (k q : Fin 128) :
    (iblk1 V c 2 t : FVec Ideal S128x128 .f32) (ix2 k q) = V c main_v41 (ix2 k q) := by
  show V c main_v41 (((cfg1.win 2).blk t).view.emb (ix2 k q)) = _
  refine congrArg (V c main_v41) ?_
  obtain ⟨-, -, -, -, e20, e21, -⟩ := index_facts t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The lower half-weight at any point, at `(k, q)`: the whole array. -/
theorem read_wb (c : Dev nD) (t : Fin cfg1.N) (k q : Fin 128) :
    (iblk1 V c 3 t : FVec Ideal S128x128 .f32) (ix2 k q) = V c main_v42 (ix2 k q) := by
  show V c main_v42 (((cfg1.win 3).blk t).view.emb (ix2 k q)) = _
  refine congrArg (V c main_v42) ?_
  obtain ⟨-, -, -, -, -, -, e30, e31, -⟩ := index_facts t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias at any point, at `q`: the whole array. -/
theorem read_b (c : Dev nD) (t : Fin cfg1.N) (q : Fin 128) :
    (iblk1 V c 4 t : FVec Ideal S128 .f32) (ix1 q) = V c main_arg6 (ix1 q) := by
  show V c main_arg6 (((cfg1.win 4).blk t).view.emb (ix1 q)) = _
  refine congrArg (V c main_arg6) ?_
  obtain ⟨-, -, -, -, -, -, -, -, e40, -⟩ := index_facts t
  funext a; apply Fin.ext
  match a with
  | ⟨0, _⟩ => show win1_4.index t (0 : Fin 1) * 128 + 1 * q.val = q.val; omega

/-- Where entry `(p, q)` of point `t`'s output block sits in the output array. -/
theorem out_at (t : Fin cfg1.N) (p : Fin 5000) (q : Fin 128) :
    (((cfg1.win 5).blk t).view.emb (ix2 p q) : S50000x128.Idx) = ix2 (row t p) q := by
  obtain ⟨-, -, -, -, -, -, -, -, -, e50, e51⟩ := index_facts t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- What point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  refine (Cert.KernelIdeal.Payload.pay1_apply (iblk1 V c 0 t) (iblk1 V c 1 t) (iblk1 V c 2 t) (iblk1 V c 3 t) (iblk1 V c 4 t) p q).trans ?_
  simp only [read_x V c t p, read_m V c t p, read_wa V c t, read_wb V c t, read_b V c t]
  show _ = result V c (((cfg1.win 5).blk t).view.emb (ix2 p q))
  rw [out_at t p q]
  rfl

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- Every index of the output array is in the block of the point that holds its row. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have ht : (i 0).val / 5000 < grid1.N := by omega
  obtain ⟨-, -, -, -, -, -, -, -, -, e50, e51⟩ := index_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]
    omega

/-- The output array after the launch is `result` of the arrays the launch was entered with. -/
theorem final (c : Dev nD) : (dat1 V c).arrAt 5 cfg1.N = result V c :=
  (dat1 V c).arrAt_eq_of_cover 5 (result V c) (fun t _ => flushed_eq V c t) cover

end Cert.KernelIdeal.Launch1

end
-- ==== Proof.KernelValue.lean ====
/-
  The idealized kernel's result as a function of the launch memory.

  The first launch leaves, in its output array, the layer (`Cert.Sage.layer`) of the node features, their neighbour
  mean, the first weight and the first bias: the launch reads the weight as its two 128-row halves, which are rows
  0 … 127 and 128 … 255 of the whole weight.  The second stretch of host operations takes the neighbour mean of that
  array along the same edges, and the second launch leaves the layer of the two with the second weight and bias.  So the
  result buffer ends holding two layers over one aggregation.
-/
import proofs.«158253_j46420006535375_1_alg».proof.Proof.KernelHost
import proofs.«158253_j46420006535375_1_alg».proof.Proof.KernelLaunch0
import proofs.«158253_j46420006535375_1_alg».proof.Proof.KernelLaunch1
import proofs.«158253_j46420006535375_1_alg».proof.Proof.SageLayer
import Idealize.ShloMosaic.Lib.Pipeline.Value
import Idealize.ShloMosaic.Lib.ValueIdx

set_option maxRecDepth 16384

noncomputable section

namespace Cert.KernelIdeal.Layers

open Cert.KernelIdeal Cert.KernelIdeal.Gen Cert.KernelIdeal.HostSide
open Idealize.ShloMosaic Idealize.ShloMosaic.TcCoe Idealize.ShloMosaic.ValueIdx Idealize.SL.Sem

/-- Row `k` of the upper rows of a weight is row `k` of the weight. -/
theorem upperRows_apply (W : (⟨S256x128, .f32⟩ : BufTy).Contents (Elt Ideal)) (k j : Fin 128) :
    upperRows W (ix2 k j) = W (ix2 (Cert.Sage.upper k) j) :=
  extractStridedSlice_apply _ W slices_S256x128_S128x128_0_0 (ix2 k j) (ix2 (Cert.Sage.upper k) j) (fun a => by
    match a with
    | ⟨0, _⟩ => exact (Nat.zero_add _).symm
    | ⟨1, _⟩ => exact (Nat.zero_add _).symm)

/-- Row `k` of the lower rows of a weight is row `128 + k` of the weight. -/
theorem lowerRows_apply (W : (⟨S256x128, .f32⟩ : BufTy).Contents (Elt Ideal)) (k j : Fin 128) :
    lowerRows W (ix2 k j) = W (ix2 (Cert.Sage.lower k) j) :=
  extractStridedSlice_apply _ W slices_S256x128_S128x128_128_0 (ix2 k j) (ix2 (Cert.Sage.lower k) j) (fun a => by
    match a with
    | ⟨0, _⟩ => rfl
    | ⟨1, _⟩ => exact (Nat.zero_add _).symm)

variable (m : (ℓ : Loc nD τ sig) → Buf (Elt Ideal) ℓ) (ρ : Dev nD → PrngReg)

/-- The first launch's output array, in terms of the launch memory: the first layer. -/
theorem first_out (c : Dev nD) :
    W2 m ρ c (Proc.devRef .tc main_v21)
      = Cert.Sage.layer (m ((c : Thread nD τ).loc main_arg0)) (mean (m ((c : Thread nD τ).loc main_arg0)) (m ((c : Thread nD τ).loc main_arg1)) (m ((c : Thread nD τ).loc main_arg2)))
          (m ((c : Thread nD τ).loc main_arg3)) (m ((c : Thread nD τ).loc main_arg4)) := by
  rw [mid_out m ρ c, Cert.KernelIdeal.Launch0.final (V1 m ρ) c]
  funext i
  unfold Cert.KernelIdeal.Launch0.result
  rw [first_x m ρ c, first_mean m ρ c, first_upper m ρ c, first_lower m ρ c, first_bias m ρ c]
  exact Cert.Sage.cellHalves_eq_cell _ _ _ _ (m ((c : Thread nD τ).loc main_arg3)) _ (upperRows_apply _) (lowerRows_apply _) (i 0) (i 1)

/-- The result buffer's final contents: two layers, the neighbour means of both taken along the same edges. -/
theorem result_eq (c : Dev nD) :
    W4 m ρ c (Proc.devRef .tc main_v43)
      = Cert.Sage.twoLayers (fun x => mean x (m ((c : Thread nD τ).loc main_arg1)) (m ((c : Thread nD τ).loc main_arg2))) (m ((c : Thread nD τ).loc main_arg0))
          (m ((c : Thread nD τ).loc main_arg3)) (m ((c : Thread nD τ).loc main_arg4)) (m ((c : Thread nD τ).loc main_arg5)) (m ((c : Thread nD τ).loc main_arg6)) := by
  rw [show W4 m ρ c (Proc.devRef .tc main_v43) = (dat1 (V3 m ρ) c).arrAt 5 cfg1.N from W4_arr m ρ c 5,
    Cert.KernelIdeal.Launch1.final (V3 m ρ) c]
  funext i
  unfold Cert.KernelIdeal.Launch1.result
  rw [second_x m ρ c, second_mean m ρ c, second_upper m ρ c, second_lower m ρ c, second_bias m ρ c,
    mid_src m ρ c, mid_dst m ρ c, mid_weight m ρ c, mid_bias m ρ c, first_out m ρ c]
  exact Cert.Sage.cellHalves_eq_cell _ _ _ _ (m ((c : Thread nD τ).loc main_arg5)) _ (upperRows_apply _) (lowerRows_apply _) (i 0) (i 1)

end Cert.KernelIdeal.Layers

end
-- ==== Proof.LibCuts.lean ====
/-
  Cuts, stacks and side-by-side layouts read at an index.

  A stack of L matrices is a rank-3 array; its member l "cut out and the unit axis dropped" read at (i, k) is the stack
  at (l, i, k), and a run of a member's rows is the stack at the rows moved along.  A stack of L vectors likewise.  Two
  arrays laid side by side along one axis read, at a coordinate in the first's span, the first, and past it the second
  at the coordinate less the first's extent.  And a statement about every position below a + b holds when it holds
  below a and at a + i for every i below b.
-/
import Idealize.ShloMosaic.Lib.ValueIdx
import Idealize.ShloMosaic.Lib.ValueLayout
import Idealize.ShloMosaic.Lib.Pipeline.Value

noncomputable section

namespace Cert.LibCuts

open Idealize.ShloMosaic Idealize.ShloMosaic.ValueIdx

variable {α : Type}

/-- Every position below a + b is below a, or a + i with i below b. -/
theorem forall_fin_add {a b n : ℕ} (h : a + b = n) {P : Fin n → Prop}
    (h0 : ∀ (i : Fin a) (hi : i.val < n), P ⟨i.val, hi⟩) (h1 : ∀ (i : Fin b) (hi : a + i.val < n), P ⟨a + i.val, hi⟩) :
    ∀ i : Fin n, P i := by
  intro i
  by_cases hi : i.val < a
  · exact h0 ⟨i.val, hi⟩ i.isLt
  · have hb : i.val - a < b := by have := i.isLt; omega
    have hn : a + (i.val - a) < n := by have := i.isLt; omega
    have key := h1 ⟨i.val - a, hb⟩ hn
    have e : (⟨a + (i.val - a), hn⟩ : Fin n) = i := Fin.ext (by show a + (i.val - a) = i.val; omega)
    exact e ▸ key

/-- Member l of a stack of matrices, cut out and the unit axis dropped, at (i, k). -/
theorem stackMember_apply {L R C : ℕ} (l : ℕ) (hl : l < L)
    (hs : (⟨3, ![L, R, C]⟩ : Shape).Slices ![l, 0, 0] ⟨3, ![1, R, C]⟩)
    (hc : (⟨3, ![1, R, C]⟩ : Shape).ShapeCasts ⟨2, ![R, C]⟩)
    (a : (⟨3, ![L, R, C]⟩ : Shape).Idx → α) (i : Fin R) (k : Fin C) :
    shapeCast ⟨2, ![R, C]⟩ (extractStridedSlice ⟨3, ![1, R, C]⟩ ![l, 0, 0] a hs) hc (ix2 i k) = a (ix3 ⟨l, hl⟩ i k) := by
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- Rows o, o + 1, … of member l of a stack of matrices: the rows cut from the whole stack first, then the member. -/
theorem stackRows_apply {L R0 R C : ℕ} (o l : ℕ) (hl : l < L)
    (h1 : (⟨3, ![L, R0, C]⟩ : Shape).Slices ![0, o, 0] ⟨3, ![L, R, C]⟩)
    (h2 : (⟨3, ![L, R, C]⟩ : Shape).Slices ![l, 0, 0] ⟨3, ![1, R, C]⟩)
    (hc : (⟨3, ![1, R, C]⟩ : Shape).ShapeCasts ⟨2, ![R, C]⟩)
    (a : (⟨3, ![L, R0, C]⟩ : Shape).Idx → α) (i : Fin R) (k : Fin C) (hi : o + i.val < R0) :
    shapeCast ⟨2, ![R, C]⟩ (extractStridedSlice ⟨3, ![1, R, C]⟩ ![l, 0, 0]
        (extractStridedSlice ⟨3, ![L, R, C]⟩ ![0, o, 0] a h1) h2) hc (ix2 i k)
      = a (ix3 ⟨l, hl⟩ ⟨o + i.val, hi⟩ k) := by
  rw [stackMember_apply l hl h2 hc, slice3_axis1_eq]

/-- Member l of a stack of vectors, cut out and the unit axis dropped, at k. -/
theorem stackVec_apply {L C : ℕ} (l : ℕ) (hl : l < L)
    (hs : (⟨2, ![L, C]⟩ : Shape).Slices ![l, 0] ⟨2, ![1, C]⟩) (hc : (⟨2, ![1, C]⟩ : Shape).ShapeCasts ⟨1, ![C]⟩)
    (a : (⟨2, ![L, C]⟩ : Shape).Idx → α) (k : Fin C) :
    shapeCast ⟨1, ![C]⟩ (extractStridedSlice ⟨2, ![1, C]⟩ ![l, 0] a hs) hc (ix1 k) = a (ix2 ⟨l, hl⟩ k) := by
  rw [shapeCast_1a_a_apply]
  exact extractStridedSlice_apply _ _ _ _ _ (fun ax => by
    match ax with
    | ⟨0, _⟩ => exact (Nat.add_zero _).symm
    | ⟨1, _⟩ => exact (Nat.zero_add _).symm)

/-- The same member kept as a one-row matrix (cut out, flattened, and made a row again), at (0, k). -/
theorem stackVecRow_apply {L C : ℕ} (l : ℕ) (hl : l < L)
    (hs : (⟨2, ![L, C]⟩ : Shape).Slices ![l, 0] ⟨2, ![1, C]⟩) (hc : (⟨2, ![1, C]⟩ : Shape).ShapeCasts ⟨1, ![C]⟩)
    (hc' : (⟨1, ![C]⟩ : Shape).ShapeCasts ⟨2, ![1, C]⟩)
    (a : (⟨2, ![L, C]⟩ : Shape).Idx → α) (k : Fin C) :
    shapeCast ⟨2, ![1, C]⟩ (shapeCast ⟨1, ![C]⟩ (extractStridedSlice ⟨2, ![1, C]⟩ ![l, 0] a hs) hc) hc' (ix2 (0 : Fin 1) k)
      = a (ix2 ⟨l, hl⟩ k) := by
  rw [shapeCast_shapeCast]
  exact extractStridedSlice_apply _ _ _ _ _ (fun ax => by
    match ax with
    | ⟨0, _⟩ => exact (Nat.add_zero _).symm
    | ⟨1, _⟩ => exact (Nat.zero_add _).symm)

/-- Two stacks laid side by side along the row axis, read in the first's span. -/
theorem concat3_rows_left {L R1 R2 R C : ℕ} (x₁ : (⟨3, ![L, R1, C]⟩ : Shape).Idx → α) (x₂ : (⟨3, ![L, R2, C]⟩ : Shape).Idx → α)
    (h : Shape.Concatenates [(⟨3, ![L, R1, C]⟩ : Shape), ⟨3, ![L, R2, C]⟩] ⟨3, ![L, R, C]⟩ 1)
    (l : Fin L) (i : Fin R1) (k : Fin C) (hi : i.val < R) :
    concatenate ⟨3, ![L, R, C]⟩ 1 [⟨⟨3, ![L, R1, C]⟩, x₁⟩, ⟨⟨3, ![L, R2, C]⟩, x₂⟩] h (ix3 l ⟨i.val, hi⟩ k) = x₁ (ix3 l i k) :=
  concatenate_pair_apply_left 1 x₁ x₂ h _ rfl _ (fun b => by
    match b with
    | ⟨0, _⟩ => rfl
    | ⟨1, _⟩ => rfl
    | ⟨2, _⟩ => rfl)

/-- Two stacks laid side by side along the row axis, read past the first's span. -/
theorem concat3_rows_right {L R1 R2 R C : ℕ} (x₁ : (⟨3, ![L, R1, C]⟩ : Shape).Idx → α) (x₂ : (⟨3, ![L, R2, C]⟩ : Shape).Idx → α)
    (h : Shape.Concatenates [(⟨3, ![L, R1, C]⟩ : Shape), ⟨3, ![L, R2, C]⟩] ⟨3, ![L, R, C]⟩ 1)
    (l : Fin L) (i : Fin R2) (k : Fin C) (hi : R1 + i.val < R) :
    concatenate ⟨3, ![L, R, C]⟩ 1 [⟨⟨3, ![L, R1, C]⟩, x₁⟩, ⟨⟨3, ![L, R2, C]⟩, x₂⟩] h (ix3 l ⟨R1 + i.val, hi⟩ k) = x₂ (ix3 l i k) :=
  concatenate_pair_apply_right 1 x₁ x₂ h _ rfl rfl _ (fun b hb => by
    match b with
    | ⟨0, _⟩ => rfl
    | ⟨1, _⟩ => exact absurd rfl hb
    | ⟨2, _⟩ => rfl) (by show i.val + R1 = R1 + i.val; omega)

/-- Two matrices laid side by side along the column axis, read in the first's span. -/
theorem concat2_cols_left {N C1 C2 C : ℕ} (x₁ : (⟨2, ![N, C1]⟩ : Shape).Idx → α) (x₂ : (⟨2, ![N, C2]⟩ : Shape).Idx → α)
    (h : Shape.Concatenates [(⟨2, ![N, C1]⟩ : Shape), ⟨2, ![N, C2]⟩] ⟨2, ![N, C]⟩ 1)
    (n : Fin N) (i : Fin C1) (hi : i.val < C) :
    concatenate ⟨2, ![N, C]⟩ 1 [⟨⟨2, ![N, C1]⟩, x₁⟩, ⟨⟨2, ![N, C2]⟩, x₂⟩] h (ix2 n ⟨i.val, hi⟩) = x₁ (ix2 n i) :=
  concatenate_pair_apply_left 1 x₁ x₂ h _ rfl _ (fun b => by
    match b with
    | ⟨0, _⟩ => rfl
    | ⟨1, _⟩ => rfl)

/-- Two matrices laid side by side along the column axis, read past the first's span. -/
theorem concat2_cols_right {N C1 C2 C : ℕ} (x₁ : (⟨2, ![N, C1]⟩ : Shape).Idx → α) (x₂ : (⟨2, ![N, C2]⟩ : Shape).Idx → α)
    (h : Shape.Concatenates [(⟨2, ![N, C1]⟩ : Shape), ⟨2, ![N, C2]⟩] ⟨2, ![N, C]⟩ 1)
    (n : Fin N) (i : Fin C2) (hi : C1 + i.val < C) :
    concatenate ⟨2, ![N, C]⟩ 1 [⟨⟨2, ![N, C1]⟩, x₁⟩, ⟨⟨2, ![N, C2]⟩, x₂⟩] h (ix2 n ⟨C1 + i.val, hi⟩) = x₂ (ix2 n i) :=
  concatenate_pair_apply_right 1 x₁ x₂ h _ rfl rfl _ (fun b hb => by
    match b with
    | ⟨0, _⟩ => rfl
    | ⟨1, _⟩ => exact absurd rfl hb) (by show i.val + C1 = C1 + i.val; omega)

end Cert.LibCuts
-- ==== Proof.RefLayers.lean ====
/-
  The reference's two layers, read as the specification's layers.

  Each layer of the reference lays its input `x` and the neighbour mean of `x` side by side to an N × 256 array,
  contracts it with the whole 256 × 128 weight, adds the bias along the rows and clips below at zero.  Read at node
  `n` and feature `j` that is the one sum over 256 terms of `Cert.Sage.cell_of_joined`: columns 0 … 127 of the joined
  array are `x`, columns 128 … 255 the mean.  The second layer's neighbour mean is the same chain of host operations
  as the first's, applied to the first layer's output.
-/
import proofs.«158253_j46420006535375_1_alg».proof.Proof.Gen.ReferenceIdeal.Read
import proofs.«158253_j46420006535375_1_alg».proof.Proof.SageLayer
import proofs.«158253_j46420006535375_1_alg».proof.Proof.LibCuts

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-- The first layer's output is the specification's layer of the input and its neighbour mean. -/
theorem first_layer (x0 : (⟨S50000x128, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) :
    val_main_v24 (F := Ideal) x0 x1 x2 x3 x4 = Cert.Sage.layer x0 (val_main_v18 (F := Ideal) x0 x1 x2) x3 x4 := by
  funext i
  obtain ⟨n, j, rfl⟩ : ∃ (n : Fin 50000) (j : Fin 128), i = ix2 n j := ⟨i 0, i 1, eq_ix2 i⟩
  rw [val_main_v24_apply, val_main_v23_apply, val_main_v20_apply, val_main_v22_apply, val_main_v21_apply,
    val_main_call0_v0_apply, val_main_call0_cst_apply]
  have el : ∀ k : Fin 256, lidx_main_v20 (ix2 n j) k = ix2 n k := fun k => funext fun a => Fin.ext (by
    match a with
    | ⟨0, _⟩ => rfl
    | ⟨1, _⟩ => rfl)
  have er : ∀ k : Fin 256, ridx_main_v20 (ix2 n j) k = ix2 k j := fun k => funext fun a => Fin.ext (by
    match a with
    | ⟨0, _⟩ => rfl
    | ⟨1, _⟩ => rfl)
  have eb : idx_main_v21 (idx_main_v22 (ix2 n j)) = ix1 j := funext fun a => Fin.ext (by
    match a with
    | ⟨0, _⟩ => rfl)
  simp only [el, er, eb]
  show max ((∑ k : Fin 256, (val_main_v19 (F := Ideal) x0 x1 x2) (ix2 n k) * x3 (ix2 k j)) + x4 (ix1 j)) (Ideal.ofBits .f32 0x00000000#32)
      = Cert.Sage.cell x0 (val_main_v18 (F := Ideal) x0 x1 x2) x3 x4 n j
  rw [Ideal.ofBits_zero_f32]
  exact Cert.Sage.cell_of_joined x0 (val_main_v18 (F := Ideal) x0 x1 x2) (val_main_v19 (F := Ideal) x0 x1 x2) x3 x4 n j
    (fun k => Cert.LibCuts.concat2_cols_left x0 (val_main_v18 (F := Ideal) x0 x1 x2) concatenates_S50000x128_S50000x128_S50000x256_d1 n k _)
    (fun k => Cert.LibCuts.concat2_cols_right x0 (val_main_v18 (F := Ideal) x0 x1 x2) concatenates_S50000x128_S50000x128_S50000x256_d1 n k _)

/-- The second layer's output is the specification's layer of the first layer's output and ITS neighbour mean. -/
theorem second_layer (x0 : (⟨S50000x128, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) :
    val_main_v49 (F := Ideal) x0 x1 x2 x3 x4 x5 x6 = Cert.Sage.layer (val_main_v24 (F := Ideal) x0 x1 x2 x3 x4) (val_main_v43 (F := Ideal) x0 x1 x2 x3 x4) x5 x6 := by
  funext i
  obtain ⟨n, j, rfl⟩ : ∃ (n : Fin 50000) (j : Fin 128), i = ix2 n j := ⟨i 0, i 1, eq_ix2 i⟩
  rw [val_main_v49_apply, val_main_v48_apply, val_main_v45_apply, val_main_v47_apply, val_main_v46_apply,
    val_main_call1_v0_apply, val_main_call1_cst_apply]
  have el : ∀ k : Fin 256, lidx_main_v45 (ix2 n j) k = ix2 n k := fun k => funext fun a => Fin.ext (by
    match a with
    | ⟨0, _⟩ => rfl
    | ⟨1, _⟩ => rfl)
  have er : ∀ k : Fin 256, ridx_main_v45 (ix2 n j) k = ix2 k j := fun k => funext fun a => Fin.ext (by
    match a with
    | ⟨0, _⟩ => rfl
    | ⟨1, _⟩ => rfl)
  have eb : idx_main_v46 (idx_main_v47 (ix2 n j)) = ix1 j := funext fun a => Fin.ext (by
    match a with
    | ⟨0, _⟩ => rfl)
  simp only [el, er, eb]
  show max ((∑ k : Fin 256, (val_main_v44 (F := Ideal) x0 x1 x2 x3 x4) (ix2 n k) * x5 (ix2 k j)) + x6 (ix1 j)) (Ideal.ofBits .f32 0x00000000#32)
      = Cert.Sage.cell (val_main_v24 (F := Ideal) x0 x1 x2 x3 x4) (val_main_v43 (F := Ideal) x0 x1 x2 x3 x4) x5 x6 n j
  rw [Ideal.ofBits_zero_f32]
  exact Cert.Sage.cell_of_joined (val_main_v24 (F := Ideal) x0 x1 x2 x3 x4) (val_main_v43 (F := Ideal) x0 x1 x2 x3 x4) (val_main_v44 (F := Ideal) x0 x1 x2 x3 x4) x5 x6 n j
    (fun k => Cert.LibCuts.concat2_cols_left (val_main_v24 (F := Ideal) x0 x1 x2 x3 x4) (val_main_v43 (F := Ideal) x0 x1 x2 x3 x4) concatenates_S50000x128_S50000x128_S50000x256_d1 n k _)
    (fun k => Cert.LibCuts.concat2_cols_right (val_main_v24 (F := Ideal) x0 x1 x2 x3 x4) (val_main_v43 (F := Ideal) x0 x1 x2 x3 x4) concatenates_S50000x128_S50000x128_S50000x256_d1 n k _)

/-- The second layer's neighbour mean is the first layer's chain of host operations applied to the first layer's
    output: the two stretches of @main are the same operations, one after the other. -/
theorem second_mean (x0 : (⟨S50000x128, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) :
    val_main_v43 (F := Ideal) x0 x1 x2 x3 x4 = val_main_v18 (F := Ideal) (val_main_v24 (F := Ideal) x0 x1 x2 x3 x4) x1 x2 := rfl

/-- The reference's result: two layers over one and the same aggregation. -/
theorem result_eq (x0 : (⟨S50000x128, .f32⟩ : BufTy).Contents (Elt Ideal)) (x1 x2 : (⟨S800000, .i32⟩ : BufTy).Contents (Elt Ideal)) (x3 : (⟨S256x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) :
    val_main_v49 (F := Ideal) x0 x1 x2 x3 x4 x5 x6
      = Cert.Sage.twoLayers (fun x => val_main_v18 (F := Ideal) x x1 x2) x0 x3 x4 x5 x6 := by
  rw [second_layer, second_mean, first_layer]
  rfl

end Cert.ReferenceIdeal.RefValue

end
-- ==== Proof.lean ====
/-
  A two-layer mean-aggregation graph encoder: the kernel's program against the reference, on the extended reals.

  Both programs take node features `h` (50000 × 128), the edges' source and destination indices, and per layer a
  weight (256 × 128) and a bias (128).  A layer forms the neighbour mean `m` of its input `x` on the host (rows of `x`
  gathered at the sources, summed into the destinations, divided by the larger of the edge count and one) and returns

      max ( x · W[0 … 127, :]  +  m · W[128 … 255, :]  +  b ,  0 ).

  The reference lays `x` and `m` side by side and contracts the 256 columns with the whole `W` in one sum.  The kernel
  cuts `W` into its two halves on the host and, in a kernel launch of ten row blocks, forms the two 128-term sums
  separately from operands rounded to the matrix unit's input format, adds them, adds the bias and clips at zero.
  At the exact instance the roundings are the identity, the accumulators start from the additive unit, and one sum
  over 256 terms is the sum of its first 128 and its last 128 terms: addition of extended reals is commutative and
  associative, so this needs no finiteness and the precondition is never opened.  The neighbour mean is the same chain
  of host operations in both programs and is carried as one function, never opened.  Hence both programs end with
  `Cert.Sage.twoLayers` of one aggregation and the same arguments.

  The three frames are the generated frame certificates (the reference's is its generated run with the result
  dropped); no operation was rewritten by the idealization, so there is nothing to preserve.
-/
import proofs.«158253_j46420006535375_1_alg».proof.Defs
import proofs.«158253_j46420006535375_1_alg».proof.Proof.Gen.Kernel
import proofs.«158253_j46420006535375_1_alg».proof.Proof.Gen.Kernel.Skeleton
import proofs.«158253_j46420006535375_1_alg».proof.Proof.Gen.Kernel.Launch
import proofs.«158253_j46420006535375_1_alg».proof.Proof.Gen.Kernel.Points
import proofs.«158253_j46420006535375_1_alg».proof.Proof.Gen.Kernel.Frame
import proofs.«158253_j46420006535375_1_alg».proof.Proof.Gen.KernelIdeal
import proofs.«158253_j46420006535375_1_alg».proof.Proof.Gen.KernelIdeal.Skeleton
import proofs.«158253_j46420006535375_1_alg».proof.Proof.Gen.KernelIdeal.Launch
import proofs.«158253_j46420006535375_1_alg».proof.Proof.Gen.KernelIdeal.Points
import proofs.«158253_j46420006535375_1_alg».proof.Proof.Gen.KernelIdeal.Frame
import proofs.«158253_j46420006535375_1_alg».proof.Proof.Gen.ReferenceIdeal
import proofs.«158253_j46420006535375_1_alg».proof.Proof.Gen.ReferenceIdeal.Run
import proofs.«158253_j46420006535375_1_alg».proof.Proof.Gen.ReferenceIdeal.Read
import proofs.«158253_j46420006535375_1_alg».proof.Proof.Gen.Pre_finite_inputs
import proofs.«158253_j46420006535375_1_alg».proof.Proof.KernelRun
import proofs.«158253_j46420006535375_1_alg».proof.Proof.KernelValue
import proofs.«158253_j46420006535375_1_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem

/-- The kernel's program as printed runs and leaves its arguments unchanged. -/
theorem frame_kernel : Cert.frame_Kernel := fun m ρ _ => Cert.Kernel.Gen.frame m ρ

/-- So does its reading at the exact instance. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The neighbour mean is one and the same chain of host operations in the two programs. -/
theorem mean_eq (x : (⟨Cert.KernelIdeal.S50000x128, .f32⟩ : BufTy).Contents (Elt Ideal))
    (s d : (⟨Cert.KernelIdeal.S800000, .i32⟩ : BufTy).Contents (Elt Ideal)) :
    Cert.ReferenceIdeal.Read.val_main_v18 (F := Ideal) x s d = Cert.KernelIdeal.HostSide.mean (F := Ideal) x s d := rfl

/-- From memories that agree on the arguments both programs end with the two layers of one aggregation. -/
theorem algebraic : Cert.algebraic_KernelIdeal_ReferenceIdeal := by
  intro m ρ m' ρ' _ hagree
  refine ⟨fun c => Cert.Sage.twoLayers
      (fun x => Cert.KernelIdeal.HostSide.mean (F := Ideal) x (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Layers.result_eq m ρ c), (h c).2⟩) (Cert.KernelIdeal.Run.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v49_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2]
    simp only [mean_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
